-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩
abbrev S128x128 : Shape := ⟨2, ![128, 128]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  reducesTo_S_S_d : S_.ReducesTo [] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg3 : FVec F S_ .f32) (main_arg4 : FVec F S_ .f32) (main_arg5 : IVec S_ 32) (main_arg6 : FVec F S128x128 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S_ .f32 := Host.absf main_arg4
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S128x128 .f32 := Host.absf main_arg6
  let main_cst_8 : FVec F S_ .f32 := constant S_ .f32 0x7F800000#32
  let main_v23 : FVec F S128x128 .f32 := broadcastInDim S128x128 ![] bcast_S_S128x128 main_cst_8
  let main_v24 : IVec S128x128 1 := cmpf .olt main_v22 main_v23
  let main_c_9 : IVec S_ 1 := constantI S_ 1 1#1
  let main_v25 : IVec S_ 1 := (fun x v => Host.reduce IntOp.andi x v reducesTo_S128x128_S_d0_1 h_S_) main_v24 main_c_9
  let main_v26 : IVec S_ 1 := andi main_v21 main_v25
  let main_v27 : FVec F S_ .f32 := sitofp .f32 main_arg5
  let main_v28 : FVec F S_ .f32 := Host.divf main_arg3 main_v27
  let main_cst_10 : FVec F S_ .f32 := constant S_ .f32 0x3F800000#32
  let main_v29 : FVec F S_ .f32 := addf main_v28 main_cst_10
  let main_cst_11 : FVec F S_ .f32 := constant S_ .f32 0x00000000#32
  let main_v30 : IVec S_ 1 := cmpf .ogt main_v29 main_cst_11
  let main_v31 : IVec S_ 1 := andi main_v26 main_v30
  main_v31

def fn {F : FTy → Type} [FloatOps F] (main_arg0 : FVec F S10000x128 .f32) (main_arg1 : FVec F S10000x10000 .f32) (main_arg2 : FVec F S10000x128 .f32) (main_arg3 : FVec F S_ .f32) (main_arg4 : FVec F S_ .f32) (main_arg5 : IVec S_ 32) (main_arg6 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg3 main_arg4 main_arg5 main_arg6 main_v13 main_v15 main_c_5
-- ==== Kernel.lean ====
abbrev S10000x128 : Shape := ⟨2, ![10000, 128]⟩
abbrev S10000x10000 : Shape := ⟨2, ![10000, 10000]⟩
abbrev S_ : Shape := ⟨0, ![]⟩
abbrev S128x128 : Shape := ⟨2, ![128, 128]⟩
abbrev S200x10000 : Shape := ⟨2, ![200, 10000]⟩
abbrev S200x128 : Shape := ⟨2, ![200, 128]⟩

abbrev nBuf : Space → Nat
  | .hbm => 35
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S_, .f32⟩
  | .hbm, ⟨4, _⟩ => ⟨S_, .f32⟩
  | .hbm, ⟨5, _⟩ => ⟨S_, .i32⟩
  | .hbm, ⟨6, _⟩ => ⟨S128x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128x128, .f32⟩
  | .hbm, ⟨15, _⟩ => ⟨S128x128, .f32⟩
  | .hbm, ⟨16, _⟩ => ⟨S_, .f32⟩
  | .hbm, ⟨17, _⟩ => ⟨S_, .f32⟩
  | .hbm, ⟨18, _⟩ => ⟨S128x128, .i32⟩
  | .hbm, ⟨19, _⟩ => ⟨S128x128, .i32⟩
  | .hbm, ⟨20, _⟩ => ⟨S_, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S_, .f32⟩
  | .hbm, ⟨29, _⟩ => ⟨S_, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S200x128, .f32⟩
  | .local _ .vmem, ⟨4, _⟩ => ⟨S200x128, .f32⟩
  | .local _ .vmem, ⟨5, _⟩ => ⟨S128x128, .f32⟩
  | .local _ .vmem, ⟨6, _⟩ => ⟨S128x128, .f32⟩
  | .local _ .vmem, ⟨7, _⟩ => ⟨S200x128, .f32⟩
  | .local _ .vmem, ⟨8, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v3 : BitVec 32 := Scalar.muli arg0 c200_i32
  let v4 : Index := Scalar.indexCast v3
  let c0_3 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S128x128 : S_.BroadcastsInDim S128x128 (![] : Fin 0 → Fin S128x128.rank)
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  h_S200x128 : 0 < S200x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S200x128_S200x128_0_0 : ∀ a, (![0, 0] : Fin 2 → Nat) a + S200x128.size a ≤ S200x128.size a
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x128.size a ≤ S10000x128.size a
  hwx0_2 : ∀ i : grid0.Coords, EltTy.bits .f32 = 32 ∨ (Rect.block (s := S10000x128) S200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S_ : Shape := ⟨0, ![]⟩
abbrev S128x128 : Shape := ⟨2, ![128, 128]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S_, .f32⟩
  | .hbm, ⟨4, _⟩ => ⟨S_, .f32⟩
  | .hbm, ⟨5, _⟩ => ⟨S_, .i32⟩
  | .hbm, ⟨6, _⟩ => ⟨S128x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S10000x128, .f32⟩
  | .hbm, ⟨15, _⟩ => ⟨S_, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibReadBack.lean ====
/-
  Reading back what stores through unit-stride rectangles leave in a buffer.

  A buffer is read either whole (the rectangle at zero offsets of the buffer's own sizes) or one tile at a time (a
  rectangle of fixed sizes at some offsets). The lemmas here say, for each of the two:
    * a load of a whole memref held at contents X reads X;
    * after ONE store, a load through the rectangle stored through reads the stored payload, however the (equal)
      offsets of the two rectangles are spelt;
    * after one store, a load through a rectangle that is clear of the stored one along some axis reads what was
      there before.
  All are generic in the shape, the element type and the values.
-/
import Idealize.ShloMosaic.Lib.Pipeline.Value
import Idealize.ShloMosaic.Lib.Pipeline.Frame
import Idealize.ShloMosaic.Lib.WritesUnit

noncomputable section

namespace ReadBack

open Idealize.ShloMosaic

variable {sig : RefSig} {κ : Kind} {sp : Space} {S : Shape} {e : EltTy} {Val : EltTy → Type}

/-- The zero offsets of a rank-2 rectangle, spelt as a literal vector. -/
theorem zero2 : (![0, 0] : Fin 2 → ℕ) = fun _ => 0 := by
  funext a; fin_cases a <;> rfl

/-- A load of the whole of a whole memref held at contents X reads X. -/
theorem readAt_whole_unread {m : Memref sig κ sp S e} (h : m.IsWhole) {off : Fin S.rank → ℕ} (hz : off = fun _ => 0)
    (inb : ∀ a, off a + S.size a ≤ S.size a) (X : S.Idx → Val e) :
    m.view.readAt Val (Rect.unit off S.size inb).toLoadRect (h.unread X) = X := by
  rw [View.readAt_eq_ld, h.read_unread, View.ld_unit_zero hz]

/-- What a buffer reads after ONE store of the whole of it: the payload, whatever it held. -/
theorem read_writes_whole [∀ e, Nonempty (Val e)] (v : View sig κ sp S e) (f : v.ty.Contents Val) {off : Fin S.rank → ℕ}
    (hz : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A tile read back through the rectangle it was stored through (the two offsets equal, however spelt) is the
    stored payload. -/
theorem readCov_unit_same [∀ e, Nonempty (Val e)] (v : View sig κ sp S e) {off off' size : Fin S.rank → ℕ}
    (inb : ∀ a, off a + size a ≤ S.size a) (inb' : ∀ a, off' a + size a ≤ S.size a) (heq : off = off')
    (w : (Rect.unit off size inb).shape.Idx → Val e) :
    v.readCov [(⟨Rect.unit off size inb, w⟩ : View.Piece Val S e)] (Rect.unit off' size inb').toLoadRect = w := by
  subst heq
  rw [View.readCov_eq_canon v _ _ (fun j => ⟨_, List.mem_singleton_self _, LoadRect.idx_mem _ j⟩)]
  funext j
  exact View.canon_cons_emb (Rect.unit off size inb) w [] j

/-- The tile of contents X at given offsets: X along the rectangle. Equal offsets give equal tiles. -/
theorem ld_congr_off {off off' size : Fin S.rank → ℕ} (inb : ∀ a, off a + size a ≤ S.size a)
    (inb' : ∀ a, off' a + size a ≤ S.size a) (heq : off = off') (X : S.Idx → Val e) :
    View.ld X (Rect.unit off size inb) = View.ld X (Rect.unit off' size inb') := by
  subst heq; rfl

/-- After one store through a tile's rectangle, that tile of the buffer is the payload. -/
theorem ld_read_writes_same (v : View sig κ sp S e) (f : v.ty.Contents Val) {off off' size : Fin S.rank → ℕ}
    (inb : ∀ a, off a + size a ≤ S.size a) (inb' : ∀ a, off' a + size a ≤ S.size a) (heq : off = off')
    (w : (Rect.unit off size inb).shape.Idx → Val e) :
    View.ld (v.read Val (v.writes Val f [(⟨Rect.unit off size inb, w⟩ : View.Piece Val S e)])) (Rect.unit off' size inb') = w := by
  subst heq
  funext j
  exact View.read_writes_cons_emb v f (Rect.unit off size inb) w [] j

/-- After one store through a tile's rectangle, a tile clear of it along axis a is what it was. -/
theorem ld_read_writes_other (v : View sig κ sp S e) (f : v.ty.Contents Val) {off off' size size' : Fin S.rank → ℕ}
    (inb : ∀ a, off a + size a ≤ S.size a) (inb' : ∀ a, off' a + size' a ≤ S.size a)
    (w : (Rect.unit off size inb).shape.Idx → Val e) (a : Fin S.rank)
    (ha : off' a + size' a ≤ off a ∨ off a + size a ≤ off' a) :
    View.ld (v.read Val (v.writes Val f [(⟨Rect.unit off size inb, w⟩ : View.Piece Val S e)])) (Rect.unit off' size' inb')
      = View.ld (v.read Val f) (Rect.unit off' size' inb') := by
  funext j
  show v.read Val (v.writes Val f [(⟨Rect.unit off size inb, w⟩ : View.Piece Val S e)]) ((Rect.unit off' size' inb').emb j) = _
  rw [View.read_writes_cons_unit_of_not_mem v f inb w [] _ rfl a (by
    have hj : ((Rect.unit off' size' inb').emb j a : ℕ) = off' a + 1 * (j a).val := rfl
    have hlt := (j a).isLt
    have hsz : (Rect.unit off' size' inb').shape.size a = size' a := rfl
    rw [hj]; omega)]
  rfl

end ReadBack

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.LibBlend.lean ====
/-
  The algebra that joins the two programs.

  One program blends a scalar θ and the identity into the weight matrix first,
      W' = θ·W + (1 − θ)·I ,   and then forms   a·((1 − α)·W') + b·(α·W') + x ;
  the other blends the two rows first,   s = (1 − α)·a + α·b ,   and then forms   θ·(s·W) + (1 − θ)·s + x .
  Over the real numbers both are
      (1 − α)·θ·(a·W) + (1 − α)·(1 − θ)·a + α·θ·(b·W) + α·(1 − θ)·b + x :
  distributivity, and a sum against a row of the identity picking one entry. On the extended reals distributivity
  fails at ±∞ (with θ = −∞ the two sides can be −∞ and +∞), so the law is stated for entries that are real numbers,
  and proved by moving the whole computation into ℝ.
-/
import proofs.«105582_g20521353740692_cont_8to1_93_4_alg».proof.Proof.LibExtReals

noncomputable section

open scoped BigOperators

namespace Cert.Blend

variable {K : Type} [Fintype K] [DecidableEq K]

/-- A row u against column c of  s·(θ·W + (1 − θ)·I) : the scaled product with W plus the scaled entry u c. -/
theorem row_against_blend (u : K → ℝ) (W : K → K → ℝ) (θ s : ℝ) (c : K) :
    ∑ k, u k * (s * (θ * W k c + (1 - θ) * (if k = c then 1 else 0)))
      = s * θ * ∑ k, u k * W k c + s * (1 - θ) * u c := by
  have h : ∀ k, u k * (s * (θ * W k c + (1 - θ) * (if k = c then 1 else 0)))
      = s * θ * (u k * W k c) + (if k = c then s * (1 - θ) * u k else 0) := by
    intro k; split_ifs <;> ring
  simp only [h, Finset.sum_add_distrib, ← Finset.mul_sum, Finset.sum_ite_eq', Finset.mem_univ, if_true]

/-- The law in ℝ. -/
theorem real_law (a b : K → ℝ) (W : K → K → ℝ) (θ α x : ℝ) (c : K) :
    (∑ k, a k * ((1 - α) * (θ * W k c + (1 - θ) * (if k = c then 1 else 0)))
      + ∑ k, b k * (α * (θ * W k c + (1 - θ) * (if k = c then 1 else 0)))) + x
    = (θ * ∑ k, ((1 - α) * a k + α * b k) * W k c + (1 - θ) * ((1 - α) * a c + α * b c)) + x := by
  have h2 : ∑ k, ((1 - α) * a k + α * b k) * W k c = (1 - α) * ∑ k, a k * W k c + α * ∑ k, b k * W k c := by
    simp only [add_mul, Finset.sum_add_distrib, Finset.mul_sum, mul_assoc]
  rw [row_against_blend, row_against_blend, h2]; ring

/-- The law on the extended reals, for entries that are real numbers. -/
theorem ereal_law (a b : K → EReal) (W : K → K → EReal) (θ α x : EReal) (c : K)
    (ha : ∀ k, ∃ r : ℝ, a k = (r : EReal)) (hb : ∀ k, ∃ r : ℝ, b k = (r : EReal))
    (hW : ∀ k, ∃ r : ℝ, W k c = (r : EReal))
    (hθ : ∃ r : ℝ, θ = (r : EReal)) (hα : ∃ r : ℝ, α = (r : EReal)) (hx : ∃ r : ℝ, x = (r : EReal)) :
    (∑ k, a k * ((1 - α) * (θ * W k c + (1 - θ) * (if k = c then 1 else 0)))
      + ∑ k, b k * (α * (θ * W k c + (1 - θ) * (if k = c then 1 else 0)))) + x
    = (θ * ∑ k, ((1 - α) * a k + α * b k) * W k c + (1 - θ) * ((1 - α) * a c + α * b c)) + x := by
  choose a' ha' using ha
  choose b' hb' using hb
  choose W' hW' using hW
  obtain ⟨θ', rfl⟩ := hθ
  obtain ⟨α', rfl⟩ := hα
  obtain ⟨x', rfl⟩ := hx
  have hite : ∀ (p : Prop) [Decidable p], (if p then (1 : EReal) else 0) = ((if p then 1 else 0 : ℝ) : EReal) := by
    intro p _; split <;> simp
  have h1 : (1 : EReal) = ((1 : ℝ) : EReal) := rfl
  simp only [ha', hb', hW', hite]
  rw [h1]
  simp only [← EReal.coe_sub, ← EReal.coe_mul, ← EReal.coe_add, ← Cert.Net.coe_sum]
  exact congrArg _ (real_law a' b' (fun k _ => W' k) θ' α' x' c)

end Cert.Blend

end
-- ==== Proof.Weights.lean ====
/-
  The folded weights.

  The scalar θ = min(1, log(λ / l + 1)); the identity matrix as the host builds it (row number = column number,
  converted to 0 / 1); the blend  θ·W + (1 − θ)·I ; and its two scalings by 1 − α and by α. Each is written with the
  operations both programs use, and read at an index. θ is a real number as soon as λ / l + 1 is positive: then the
  logarithm is a real number or +∞, and the smaller of it and 1 is a real number.
-/
import Idealize.ShloMosaic.Lib.IdealHost
import Idealize.ShloMosaic.Lib.Pipeline.Value
import proofs.«105582_g20521353740692_cont_8to1_93_4_alg».proof.Proof.LibExtReals

noncomputable section

namespace Cert.Fused

open Idealize.ShloMosaic Idealize.ShloMosaic.ValueIdx

abbrev S0 : Shape := ⟨0, ![]⟩
abbrev SW : Shape := ⟨2, ![128, 128]⟩

/-- The argument of the logarithm: λ / l + 1. -/
def logArg (lam : FVec Ideal S0 .f32) (l : IVec S0 32) : FVec Ideal S0 .f32 :=
  addf (Host.divf lam (sitofp .f32 l)) (constant S0 .f32 0x3F800000#32)

/-- θ = min(1, log(λ / l + 1)). -/
def thetaV (lam : FVec Ideal S0 .f32) (l : IVec S0 32) : FVec Ideal S0 .f32 :=
  minimumf (constant S0 .f32 0x3F800000#32) (Host.log (logArg lam l))

/-- The identity matrix: 1 where the row number equals the column number, 0 elsewhere. -/
def eye (bc : S0.BroadcastsInDim SW ![]) : FVec Ideal SW .f32 :=
  uitofp .f32 (cmpi .eq (addi (iotaInDim SW 32 0) (broadcastInDim SW ![] bc (constantI S0 32 0#32))) (iotaInDim SW 32 1))

/-- θ·W + (1 − θ)·I. -/
def blend (bc : S0.BroadcastsInDim SW ![]) (θ : FVec Ideal S0 .f32) (W : FVec Ideal SW .f32) : FVec Ideal SW .f32 :=
  addf (mulf (broadcastInDim SW ![] bc θ) W)
    (mulf (broadcastInDim SW ![] bc (subf (constant S0 .f32 0x3F800000#32) θ)) (eye bc))

/-- (1 − α)·(θ·W + (1 − θ)·I). -/
def wLeft (bc : S0.BroadcastsInDim SW ![]) (α θ : FVec Ideal S0 .f32) (W : FVec Ideal SW .f32) : FVec Ideal SW .f32 :=
  mulf (broadcastInDim SW ![] bc (subf (constant S0 .f32 0x3F800000#32) α)) (blend bc θ W)

/-- α·(θ·W + (1 − θ)·I). -/
def wRight (bc : S0.BroadcastsInDim SW ![]) (α θ : FVec Ideal S0 .f32) (W : FVec Ideal SW .f32) : FVec Ideal SW .f32 :=
  mulf (broadcastInDim SW ![] bc α) (blend bc θ W)

/-- Two numbers below 128 have equal 32-bit words exactly when they are equal. -/
theorem eq_bit (a b : ℕ) (ha : a < 128) (hb : b < 128) :
    (BitVec.ofBool (BitVec.ofNat 32 a + 0#32 == BitVec.ofNat 32 b)).toNat = if a = b then 1 else 0 := by
  rw [BitVec.add_zero]
  by_cases h : a = b
  · subst h; simp
  · have hne : BitVec.ofNat 32 a ≠ BitVec.ofNat 32 b := fun e => h (by
      have e' := congrArg BitVec.toNat e
      simp only [BitVec.toNat_ofNat] at e'
      omega)
    simp [hne, h]

theorem eye_apply (bc : S0.BroadcastsInDim SW ![]) (k c : Fin 128) :
    eye bc (ix2 k c) = if k = c then 1 else 0 := by
  show (((IntOp.cmpi .eq (IntOp.addi (BitVec.ofNat 32 k.val) (broadcastInDim SW ![] bc (constantI S0 32 0#32) (ix2 k c)))
    (BitVec.ofNat 32 c.val)).toNat : ℝ) : EReal) = _
  rw [broadcastInDim_scalar_apply]
  show (((BitVec.ofBool (BitVec.ofNat 32 k.val + 0#32 == BitVec.ofNat 32 c.val)).toNat : ℝ) : EReal) = _
  rw [eq_bit k.val c.val k.isLt c.isLt]
  by_cases h : k = c
  · subst h; simp
  · have hv : k.val ≠ c.val := fun e => h (Fin.ext e)
    simp [h, hv]

theorem blend_apply (bc : S0.BroadcastsInDim SW ![]) (θ : FVec Ideal S0 .f32) (W : FVec Ideal SW .f32) (k c : Fin 128) :
    blend bc θ W (ix2 k c) = θ ix0 * W (ix2 k c) + (1 - θ ix0) * (if k = c then 1 else 0) := by
  show broadcastInDim SW ![] bc θ (ix2 k c) * W (ix2 k c)
    + broadcastInDim SW ![] bc (subf (constant S0 .f32 0x3F800000#32) θ) (ix2 k c) * eye bc (ix2 k c) = _
  rw [broadcastInDim_scalar_apply, broadcastInDim_scalar_apply, eye_apply]
  show θ ix0 * W (ix2 k c) + (Ideal.ofBits .f32 0x3F800000#32 - θ ix0) * _ = _
  rw [Cert.Net.one_word]

theorem wLeft_apply (bc : S0.BroadcastsInDim SW ![]) (α θ : FVec Ideal S0 .f32) (W : FVec Ideal SW .f32) (k c : Fin 128) :
    wLeft bc α θ W (ix2 k c) = (1 - α ix0) * (θ ix0 * W (ix2 k c) + (1 - θ ix0) * (if k = c then 1 else 0)) := by
  show broadcastInDim SW ![] bc (subf (constant S0 .f32 0x3F800000#32) α) (ix2 k c) * blend bc θ W (ix2 k c) = _
  rw [broadcastInDim_scalar_apply, blend_apply]
  show (Ideal.ofBits .f32 0x3F800000#32 - α ix0) * _ = _
  rw [Cert.Net.one_word]

theorem wRight_apply (bc : S0.BroadcastsInDim SW ![]) (α θ : FVec Ideal S0 .f32) (W : FVec Ideal SW .f32) (k c : Fin 128) :
    wRight bc α θ W (ix2 k c) = α ix0 * (θ ix0 * W (ix2 k c) + (1 - θ ix0) * (if k = c then 1 else 0)) := by
  show broadcastInDim SW ![] bc α (ix2 k c) * blend bc θ W (ix2 k c) = _
  rw [broadcastInDim_scalar_apply, blend_apply]

/-- The smaller of 1 and the logarithm of a positive extended real is a real number. -/
theorem min_one_log_real (y : EReal) (hy : 0 < y) : ∃ r : ℝ, min (1 : EReal) (Ideal.log y) = (r : EReal) := by
  induction y using EReal.rec with
  | bot => exact absurd hy (by simp)
  | coe r =>
    have hr : ¬ r ≤ 0 := not_le.mpr (by exact_mod_cast hy)
    rw [Ideal.log_coe, if_neg hr]
    exact ⟨min 1 (Real.log r), by
      rcases le_total (1 : ℝ) (Real.log r) with h | h
      · rw [min_eq_left h, min_eq_left (by exact_mod_cast h)]; rfl
      · rw [min_eq_right h, min_eq_right (by exact_mod_cast h)]⟩
  | top => exact ⟨1, by rw [Ideal.log_top, min_eq_left le_top]; rfl⟩

/-- θ is a real number when λ / l + 1 is positive. -/
theorem theta_real (lam : FVec Ideal S0 .f32) (l : IVec S0 32) (h : 0 < logArg lam l ix0) :
    ∃ r : ℝ, thetaV lam l ix0 = (r : EReal) := by
  show ∃ r : ℝ, min (Ideal.ofBits .f32 0x3F800000#32) (Ideal.log (logArg lam l ix0)) = (r : EReal)
  rw [Cert.Net.one_word]
  exact min_one_log_real _ h

end Cert.Fused

end
-- ==== Proof.Spec.lean ====
/-
  The result as one function of the argument arrays, in the two arrangements.

  With  hi = adj · x  (row r, column k:  Σ_j adj(r, j) · x(j, k)):
    * folded form:    out(r, c) = (Σ_k hi(r, k) · w₁(k, c) + Σ_k h0(r, k) · w₂(k, c)) + x(r, c)
      for any two 128 × 128 matrices w₁, w₂;
    * blended-rows form:  out(r, c) = (θ · Σ_k s(r, k) · W(k, c) + (1 − θ) · s(r, c)) + x(r, c)  with
      s = (1 − α) · hi + α · h0.
  At  w₁ = (1 − α)·(θ·W + (1 − θ)·I),  w₂ = α·(θ·W + (1 − θ)·I)  the two agree when every entry is a real number.
-/
import proofs.«105582_g20521353740692_cont_8to1_93_4_alg».proof.Proof.LibBlend
import proofs.«105582_g20521353740692_cont_8to1_93_4_alg».proof.Proof.Weights

noncomputable section

open scoped BigOperators

namespace Cert.Fused

open Idealize.ShloMosaic Idealize.ShloMosaic.ValueIdx

abbrev SX : Shape := ⟨2, ![10000, 128]⟩
abbrev SA : Shape := ⟨2, ![10000, 10000]⟩

/-- Row r, column k of adj · x. -/
def agg (x : SX.Idx → EReal) (adj : SA.Idx → EReal) (r : Fin 10000) (k : Fin 128) : EReal :=
  ∑ j : Fin 10000, adj (ix2 r j) * x (ix2 j k)

/-- The folded form at row r, column c. -/
def Gat (x : SX.Idx → EReal) (adj : SA.Idx → EReal) (h0 : SX.Idx → EReal) (w1 w2 : SW.Idx → EReal)
    (r : Fin 10000) (c : Fin 128) : EReal :=
  (∑ k : Fin 128, agg x adj r k * w1 (ix2 k c) + ∑ k : Fin 128, h0 (ix2 r k) * w2 (ix2 k c)) + x (ix2 r c)

/-- The folded form. -/
def G (x : SX.Idx → EReal) (adj : SA.Idx → EReal) (h0 : SX.Idx → EReal) (w1 w2 : SW.Idx → EReal) : SX.Idx → EReal :=
  fun i => Gat x adj h0 w1 w2 (i 0) (i 1)

/-- The blended-rows form at row r, column c. -/
def GrefAt (x : SX.Idx → EReal) (adj : SA.Idx → EReal) (h0 : SX.Idx → EReal) (θ α : EReal) (W : SW.Idx → EReal)
    (r : Fin 10000) (c : Fin 128) : EReal :=
  (θ * ∑ k : Fin 128, ((1 - α) * agg x adj r k + α * h0 (ix2 r k)) * W (ix2 k c)
    + (1 - θ) * ((1 - α) * agg x adj r c + α * h0 (ix2 r c))) + x (ix2 r c)

/-- The blended-rows form. -/
def Gref (x : SX.Idx → EReal) (adj : SA.Idx → EReal) (h0 : SX.Idx → EReal) (θ α : EReal) (W : SW.Idx → EReal) :
    SX.Idx → EReal :=
  fun i => GrefAt x adj h0 θ α W (i 0) (i 1)

/-- An entry of adj · x is a real number when the entries of adj and x are. -/
theorem agg_real (x : SX.Idx → EReal) (adj : SA.Idx → EReal) (hx : ∀ i, ∃ r : ℝ, x i = (r : EReal))
    (hadj : ∀ i, ∃ r : ℝ, adj i = (r : EReal)) (r : Fin 10000) (k : Fin 128) : ∃ v : ℝ, agg x adj r k = (v : EReal) :=
  Cert.Net.real_sum _ _ fun j => Cert.Net.real_mul (hadj _) (hx _)

/-- The two arrangements agree at the folded weights, for real entries. -/
theorem G_folded_eq_Gref (bc : S0.BroadcastsInDim SW ![]) (x : SX.Idx → EReal) (adj : SA.Idx → EReal) (h0 : SX.Idx → EReal)
    (α θ : FVec Ideal S0 .f32) (W : FVec Ideal SW .f32)
    (hx : ∀ i, ∃ r : ℝ, x i = (r : EReal)) (hadj : ∀ i, ∃ r : ℝ, adj i = (r : EReal))
    (hh : ∀ i, ∃ r : ℝ, h0 i = (r : EReal)) (hW : ∀ i, ∃ r : ℝ, W i = (r : EReal))
    (hα : ∃ r : ℝ, α ix0 = (r : EReal)) (hθ : ∃ r : ℝ, θ ix0 = (r : EReal)) :
    G x adj h0 (wLeft bc α θ W) (wRight bc α θ W) = Gref x adj h0 (θ ix0) (α ix0) W := by
  have key : ∀ (r : Fin 10000) (c : Fin 128),
      Gat x adj h0 (wLeft bc α θ W) (wRight bc α θ W) r c = GrefAt x adj h0 (θ ix0) (α ix0) W r c := by
    intro r c
    unfold Gat GrefAt
    simp only [wLeft_apply, wRight_apply]
    exact Cert.Blend.ereal_law (K := Fin 128) (fun k => agg x adj r k) (fun k => h0 (ix2 r k))
      (fun k c => W (ix2 k c)) (θ ix0) (α ix0) (x (ix2 r c)) c
      (fun k => agg_real x adj hx hadj r k) (fun k => hh _) (fun k => hW _) hθ hα (hx _)
  funext i
  exact key (i 0) (i 1)

end Cert.Fused

end
-- ==== Proof.Payload.lean ====
/-
  One grid point of the kernel.

  The body stores one 200 × 128 block, computed from five loaded blocks and one more load of the resident array x at a row
  offset: with A the 200 × 10000 block of adj, X the whole of x, H the 200 × 128 block of h0 and w₁, w₂ the two
  128 × 128 operands,
      block(p, q) = (Σ_k (Σ_j A(p, j) · X(j, k)) · w₁(k, q) + Σ_k H(p, k) · w₂(k, q)) + X(off + p, q) .
  First: what the run leaves in the output block is that payload of the loaded blocks. Then the payload at an index (each
  product into a zero accumulator is the plain sum over the contracted index). Last: if the loaded blocks are rows
  r = off + p of whole arrays, the payload at (p, q) is the folded form of those arrays at (r, q).
-/
import proofs.«105582_g20521353740692_cont_8to1_93_4_alg».proof.Proof.Gen.KernelIdeal.Value
import proofs.«105582_g20521353740692_cont_8to1_93_4_alg».proof.Proof.LibReadBack
import proofs.«105582_g20521353740692_cont_8to1_93_4_alg».proof.Proof.LibPlainDot
import proofs.«105582_g20521353740692_cont_8to1_93_4_alg».proof.Proof.Spec
import Idealize.ShloMosaic.Lib.Pipeline.Value

set_option maxRecDepth 16384

noncomputable section

open scoped BigOperators

namespace Cert.KernelIdeal.Point

open Cert.KernelIdeal Cert.KernelIdeal.Gen Idealize.ShloMosaic Idealize.ShloMosaic.TcCoe Idealize.ShloMosaic.ValueIdx
open Idealize.ShloMosaic.Tactic Idealize.SL.Sem Cert.Lib.PlainDot Cert.Fused

variable {F : FTy → Type} [FloatOps F]

/-- What the run leaves in the output block: the payload of the five loaded blocks, the sixth operand being the
    resident array read through the 200 × 128 rectangle at the point's row offset. -/
theorem out_eq_pay (c : Dev nD) (i : grid0.Coords) (arg1 : Memref sig .tc .vmem S200x10000 .f32) (harg1 : arg1.IsWhole) (arg2 : Memref sig .tc .vmem S10000x128 .f32) (harg2 : arg2.IsWhole) (arg3 : Memref sig .tc .vmem S200x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S200x128 .f32) (harg6 : arg6.IsWhole)
    (x0 : Vec F S200x10000 .f32) (x1 : Vec F S10000x128 .f32) (x2 : Vec F S200x128 .f32) (x3 : Vec F S128x128 .f32) (x4 : Vec F S128x128 .f32) :
    out0_A_5 (F := F) c i arg1 harg1 arg2 harg2 arg3 harg3 arg4 harg4 arg5 harg5 arg6 harg6 x0 x1 x2 x3 x4
      = k0_pay1 x0 x1 (View.ld x1 (Rect.unit (s := S10000x128) (k0_off1 i) S200x128.size (k0_off1_inb i))) x3 x2 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  rw [View.canon_unit_zero ReadBack.zero2]
  rw [ReadBack.readAt_whole_unread harg1 ReadBack.zero2, ReadBack.readAt_whole_unread harg2 ReadBack.zero2,
    ReadBack.readAt_whole_unread harg3 ReadBack.zero2, ReadBack.readAt_whole_unread harg4 ReadBack.zero2,
    ReadBack.readAt_whole_unread harg5 ReadBack.zero2]
  rw [View.readAt_eq_ld, harg2.read_unread]

/-- The two products' dimension numbers are those of a plain product. -/
theorem rec_big : dot_S200x10000_S10000x128_S200x128_1_0_0_1_n_n = DotDims.plain 200 10000 128 :=
  eq_plain _ rfl rfl rfl rfl rfl rfl
theorem rec_small : dot_S200x128_S128x128_S200x128_1_0_0_1_n_n = DotDims.plain 200 128 128 :=
  eq_plain _ rfl rfl rfl rfl rfl rfl

/-- The payload at (p, q). -/
theorem pay_apply (v0 : Vec Ideal S200x10000 .f32) (v1 : Vec Ideal S10000x128 .f32) (v5 : Vec Ideal S200x128 .f32)
    (v6 : Vec Ideal S128x128 .f32) (v9 : Vec Ideal S200x128 .f32) (v10 : Vec Ideal S128x128 .f32) (p : Fin 200) (q : Fin 128) :
    k0_pay1 (F := Ideal) v0 v1 v5 v6 v9 v10 (ix2 p q)
      = (∑ k : Fin 128, (∑ j : Fin 10000, v0 (ix2 p j) * v1 (ix2 j k)) * v6 (ix2 k q)
          + ∑ k : Fin 128, v9 (ix2 p k) * v10 (ix2 k q)) + v5 (ix2 p q) := by
  unfold k0_pay1
  rw [rec_big, rec_small]
  simp only [shapeCast_self]
  show (matmul (F := Ideal) (DotDims.plain 200 128 128) none
          (matmul (F := Ideal) (DotDims.plain 200 10000 128) none v0 v1 (constant (F := Ideal) S200x128 .f32 0#32)) v6
          (constant (F := Ideal) S200x128 .f32 0#32) (ix2 p q)
        + matmul (F := Ideal) (DotDims.plain 200 128 128) none v9 v10 (constant (F := Ideal) S200x128 .f32 0#32) (ix2 p q))
      + v5 (ix2 p q) = _
  rw [matmul_zero_plain_apply, matmul_zero_plain_apply]
  simp only [matmul_zero_plain_apply]

/-- If the loaded blocks are row r of adj and of h0, the whole of x and of the two weights, and x at (r, q), then the
    payload at (p, q) is the folded form at (r, q). -/
theorem point_eq (X : SX.Idx → EReal) (A : SA.Idx → EReal) (H : SX.Idx → EReal) (W1 W2 : SW.Idx → EReal)
    (v0 : Vec Ideal S200x10000 .f32) (v1 : Vec Ideal S10000x128 .f32) (v5 : Vec Ideal S200x128 .f32)
    (v6 : Vec Ideal S128x128 .f32) (v9 : Vec Ideal S200x128 .f32) (v10 : Vec Ideal S128x128 .f32)
    (p : Fin 200) (q : Fin 128) (r : Fin 10000)
    (h0 : ∀ j, v0 (ix2 p j) = A (ix2 r j)) (h1 : ∀ j k, v1 (ix2 j k) = X (ix2 j k)) (h5 : v5 (ix2 p q) = X (ix2 r q))
    (h6 : ∀ k, v6 (ix2 k q) = W1 (ix2 k q)) (h9 : ∀ k, v9 (ix2 p k) = H (ix2 r k))
    (h10 : ∀ k, v10 (ix2 k q) = W2 (ix2 k q)) :
    k0_pay1 (F := Ideal) v0 v1 v5 v6 v9 v10 (ix2 p q) = Gat X A H W1 W2 r q := by
  rw [pay_apply]
  unfold Gat agg
  simp only [h0, h1, h5, h6, h9, h10]

end Cert.KernelIdeal.Point

end
-- ==== Proof.KernelHost.lean ====
/-
  What the kernel's host part computes before the call. The two 128 × 128 operands the call receives besides the three
  arrays are the folded weights  (1 − α)·(θ·W + (1 − θ)·I)  and  α·(θ·W + (1 − θ)·I)  of the arguments, with
  θ = min(1, log(λ / l + 1)); the three arrays are the arguments themselves.
-/
import proofs.«105582_g20521353740692_cont_8to1_93_4_alg».proof.Proof.Gen.KernelIdeal.Value
import proofs.«105582_g20521353740692_cont_8to1_93_4_alg».proof.Proof.Spec
import Idealize.ShloMosaic.Lib.StableHlo.Run

noncomputable section

namespace Cert.KernelIdeal.HostValue

open Cert.KernelIdeal Cert.KernelIdeal.Gen Idealize.ShloMosaic Idealize.ShloMosaic.TcCoe Idealize.SL.Sem Cert.Fused
open Idealize.ShloMosaic.StableHlo
open Facts₀

variable (m : (ℓ : Loc nD τ sig) → Buf (Elt Ideal) ℓ)

set_option maxHeartbeats 4000000 in
/-- The fourth operand of the call is (1 − α)·(θ·W + (1 − θ)·I). -/
theorem left_weight (c : Dev nD) :
    (V m c main_v19 : S128x128.Idx → EReal)
      = wLeft Facts₀.bcast_S_S128x128 (m ((c : Thread nD τ).loc main_arg4))
          (thetaV (m ((c : Thread nD τ).loc main_arg3)) (m ((c : Thread nD τ).loc main_arg5)))
          (m ((c : Thread nD τ).loc main_arg6)) := by
  dsimp only [Gen.V, Gen.hostOps0]
  after_results_simp
  rfl

set_option maxHeartbeats 4000000 in
/-- The fifth operand of the call is α·(θ·W + (1 − θ)·I). -/
theorem right_weight (c : Dev nD) :
    (V m c main_v21 : S128x128.Idx → EReal)
      = wRight Facts₀.bcast_S_S128x128 (m ((c : Thread nD τ).loc main_arg4))
          (thetaV (m ((c : Thread nD τ).loc main_arg3)) (m ((c : Thread nD τ).loc main_arg5)))
          (m ((c : Thread nD τ).loc main_arg6)) := by
  dsimp only [Gen.V, Gen.hostOps0]
  after_results_simp
  rfl

end Cert.KernelIdeal.HostValue

end
-- ==== Proof.WholeArray.lean ====
/-
  From grid points to the whole result.

  Point t handles rows 200·t … 200·t + 199: its blocks of adj, of h0 and of the result are those rows, the blocks of x
  and of the two weights are the whole arrays, and the extra load of x starts at row 200·t. So what point t writes
  back is those rows of the folded form of the arrays the call receives. The 50 points' blocks cover every row (row r
  is in the block of point r / 200), hence the result array after the run is the folded form of the arguments, with
  the weights the host part computed.
-/
import proofs.«105582_g20521353740692_cont_8to1_93_4_alg».proof.Proof.Gen.KernelIdeal.Value
import proofs.«105582_g20521353740692_cont_8to1_93_4_alg».proof.Proof.Payload
import proofs.«105582_g20521353740692_cont_8to1_93_4_alg».proof.Proof.KernelHost
import proofs.«105582_g20521353740692_cont_8to1_93_4_alg».proof.Proof.Spec

noncomputable section

namespace Cert.KernelIdeal.Whole

open Cert.KernelIdeal Cert.KernelIdeal.Gen Idealize.ShloMosaic Idealize.ShloMosaic.TcCoe Idealize.ShloMosaic.ValueIdx
open Idealize.SL.Sem Cert.Fused
open Idealize.ShloMosaic.Pipeline (Dat)

variable (m : (ℓ : Loc nD τ sig) → Buf (Elt Ideal) ℓ) (ρ : Dev nD → PrngReg)

/-- The block indices over the grid: adj, h0 and the result move with the point along the rows, x and the two weights
    stay at block 0, there are 50 row blocks, and the extra load of x starts at row 200 · (the point's row block). -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 49
    ∧ k0_off1 (grid0.coords t) (0 : Fin 2) = win0_5.index t (0 : Fin 2) * 200
    ∧ k0_off1 (grid0.coords t) (1 : Fin 2) = 0 :=
  (by decide +kernel : ∀ t : Fin grid0.N, _)

/-- Every row block is some point's. -/
theorem idx_onto : ∀ b : Fin 50, ∃ t : Fin cfg0.N, win0_5.index t = ![b.val, 0] :=
  (by decide +kernel : ∀ b : Fin 50, ∃ t : Fin grid0.N, win0_5.index t = ![b.val, 0])

/-- The folded form of the arrays the call receives. -/
abbrev received (c : Dev nD) : S10000x128.Idx → EReal :=
  G (V m c main_arg0) (V m c main_arg1) (V m c main_arg2) (V m c main_v19) (V m c main_v21)

/-- What point t writes back is its rows of the folded form. -/
theorem flushed_eq (c : Dev nD) (t : Fin cfg0.N) :
    (dats m 0 c).flushed 5 t = ((cfg0.win 5).blk t).view.read (Elt Ideal) (received m c) := by
  rw [Value.flushed5_A, Point.out_eq_pay]
  obtain ⟨e00, e01, e10, e11, e20, e21, e30, e31, e40, e41, e51, e5le, ek0, ek1⟩ := idx_facts t
  funext y
  obtain ⟨p, q, rfl⟩ : ∃ (p : Fin 200) (q : Fin 128), y = ix2 p q := ⟨y 0, y 1, eq_ix2 y⟩
  have hq : (((cfg0.win 5).blk t).view.emb (ix2 p q)) 1 = q := Fin.ext (by
    show win0_5.index t (1 : Fin 2) * 128 + 1 * q.val = q.val
    omega)
  show k0_pay1 (F := Ideal) (iblk m c 0 t) (iblk m c 1 t)
      (View.ld (iblk m c 1 t) (Rect.unit (s := S10000x128) (k0_off1 (grid0.coords t)) S200x128.size (k0_off1_inb (grid0.coords t))))
      (iblk m c 3 t) (iblk m c 2 t) (iblk m c 4 t) (ix2 p q)
    = Gat (V m c main_arg0) (V m c main_arg1) (V m c main_arg2) (V m c main_v19) (V m c main_v21)
        ((((cfg0.win 5).blk t).view.emb (ix2 p q)) 0) ((((cfg0.win 5).blk t).view.emb (ix2 p q)) 1)
  rw [hq]
  refine Point.point_eq (V m c main_arg0) (V m c main_arg1) (V m c main_arg2) (V m c main_v19) (V m c main_v21)
    (iblk m c 0 t) (iblk m c 1 t)
    (View.ld (iblk m c 1 t) (Rect.unit (s := S10000x128) (k0_off1 (grid0.coords t)) S200x128.size (k0_off1_inb (grid0.coords t))))
    (iblk m c 3 t) (iblk m c 2 t) (iblk m c 4 t) p q ((((cfg0.win 5).blk t).view.emb (ix2 p q)) 0) ?_ ?_ ?_ ?_ ?_ ?_
  · intro j
    show V m c main_arg1 (((cfg0.win 0).blk t).view.emb (ix2 p j)) = V m c main_arg1 (ix2 _ j)
    refine congrArg _ (funext fun a => Fin.ext ?_)
    match a with
    | ⟨0, _⟩ => show win0_0.index t (0 : Fin 2) * 200 + 1 * p.val = win0_5.index t (0 : Fin 2) * 200 + 1 * p.val; omega
    | ⟨1, _⟩ => show win0_0.index t (1 : Fin 2) * 10000 + 1 * j.val = j.val; omega
  · intro j k
    show V m c main_arg0 (((cfg0.win 1).blk t).view.emb (ix2 j k)) = V m c main_arg0 (ix2 j k)
    refine congrArg _ (funext fun a => Fin.ext ?_)
    match a with
    | ⟨0, _⟩ => show win0_1.index t (0 : Fin 2) * 10000 + 1 * j.val = j.val; omega
    | ⟨1, _⟩ => show win0_1.index t (1 : Fin 2) * 128 + 1 * k.val = k.val; omega
  · show V m c main_arg0 (((cfg0.win 1).blk t).view.emb
        ((Rect.unit (s := S10000x128) (k0_off1 (grid0.coords t)) S200x128.size (k0_off1_inb (grid0.coords t))).emb (ix2 p q)))
      = V m c main_arg0 (ix2 _ q)
    refine congrArg _ (funext fun a => Fin.ext ?_)
    match a with
    | ⟨0, _⟩ =>
      show win0_1.index t (0 : Fin 2) * 10000 + 1 * (k0_off1 (grid0.coords t) (0 : Fin 2) + 1 * p.val)
        = win0_5.index t (0 : Fin 2) * 200 + 1 * p.val
      omega
    | ⟨1, _⟩ =>
      show win0_1.index t (1 : Fin 2) * 128 + 1 * (k0_off1 (grid0.coords t) (1 : Fin 2) + 1 * q.val) = q.val
      omega
  · intro k
    show V m c main_v19 (((cfg0.win 3).blk t).view.emb (ix2 k q)) = V m c main_v19 (ix2 k q)
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · intro k
    show V m c main_arg2 (((cfg0.win 2).blk t).view.emb (ix2 p k)) = V m c main_arg2 (ix2 _ k)
    refine congrArg _ (funext fun a => Fin.ext ?_)
    match a with
    | ⟨0, _⟩ => show win0_2.index t (0 : Fin 2) * 200 + 1 * p.val = win0_5.index t (0 : Fin 2) * 200 + 1 * p.val; omega
    | ⟨1, _⟩ => show win0_2.index t (1 : Fin 2) * 128 + 1 * k.val = k.val; omega
  · intro k
    show V m c main_v21 (((cfg0.win 4).blk t).view.emb (ix2 k q)) = V m c main_v21 (ix2 k q)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * q.val = q.val; omega

/-- An index of the result array is in point t's block iff each coordinate is in the block's range on its axis. -/
theorem mem_blk (t : Fin cfg0.N) (i : S10000x128.Idx) :
    i ∈ ((cfg0.win 5).blk t).view.set ↔ ∀ a : Fin 2, win0_5.index t a * S200x128.size a ≤ (i a).val
      ∧ (i a).val < win0_5.index t a * S200x128.size a + S200x128.size a := by
  show i ∈ ((View.whole main_v22).slice (win0_5.rect t)).set ↔ _
  rw [View.set_slice_whole, Rect.mem_set_unit]
  exact Iff.rfl

/-- Row r is in the block of point r / 200. -/
theorem cover (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ := idx_onto ⟨(i 0).val / 200, by omega⟩
  have q0 : win0_5.index t (0 : Fin 2) = (i 0).val / 200 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 200 ≤ (i 0).val ∧ (i 0).val < win0_5.index t (0 : Fin 2) * 200 + 200
    omega
  | ⟨1, _⟩ =>
    show win0_5.index t (1 : Fin 2) * 128 ≤ (i 1).val ∧ (i 1).val < win0_5.index t (1 : Fin 2) * 128 + 128
    omega

/-- The result array after the run is the folded form of the arrays the call receives. -/
theorem final (c : Dev nD) : (dats m 0 c).arrAt 5 cfg0.N = received m c :=
  (dats m 0 c).arrAt_eq_of_cover 5 (received m c) (fun t _ => flushed_eq m c t) cover

/-- The folded form of the arguments: the three arrays as launched, the two weights as the host part computes them. -/
abbrev result (c : Dev nD) : S10000x128.Idx → EReal :=
  G (m ((c : Thread nD τ).loc main_arg0)) (m ((c : Thread nD τ).loc main_arg1)) (m ((c : Thread nD τ).loc main_arg2))
    (wLeft Facts₀.bcast_S_S128x128 (m ((c : Thread nD τ).loc main_arg4))
      (thetaV (m ((c : Thread nD τ).loc main_arg3)) (m ((c : Thread nD τ).loc main_arg5))) (m ((c : Thread nD τ).loc main_arg6)))
    (wRight Facts₀.bcast_S_S128x128 (m ((c : Thread nD τ).loc main_arg4))
      (thetaV (m ((c : Thread nD τ).loc main_arg3)) (m ((c : Thread nD τ).loc main_arg5))) (m ((c : Thread nD τ).loc main_arg6)))

theorem received_eq (c : Dev nD) : received m c = result m c := by
  unfold received result
  rw [V_main_arg0, V_main_arg1, V_main_arg2, HostValue.left_weight, HostValue.right_weight]

/-- The kernel's run: every weakly fair execution terminates with the result array at the folded form of the arguments and
    the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (received_eq m c)), (h c).2⟩)
    (Value.run_blocks m ρ)

end Cert.KernelIdeal.Whole

end
-- ==== Proof.RefSide.lean ====
/-
  The reference, stage by stage, is the blended-rows form: hi = adj · x, s = (1 − α)·hi + α·h0, and
  out = (θ·(s · W) + (1 − θ)·s) + x, with θ = min(1, log(λ / l + 1)). Nothing here needs the entries to be finite:
  the stages are read at an index and the index maps of the two products are the evident ones.
-/
import proofs.«105582_g20521353740692_cont_8to1_93_4_alg».proof.Proof.Gen.ReferenceIdeal.Read
import proofs.«105582_g20521353740692_cont_8to1_93_4_alg».proof.Proof.Spec

noncomputable section

open scoped BigOperators

namespace Cert.ReferenceIdeal.RefValue

open Cert.ReferenceIdeal Cert.ReferenceIdeal.Read Idealize.ShloMosaic Idealize.ShloMosaic.ValueIdx Cert.Fused

/-- The index maps of the product s · W at (r, c): the left operand at (r, k), the right at (k, c). -/
theorem lidx12 (r : Fin 10000) (c k : Fin 128) : lidx_main_v12 (ix2 r c) k = ix2 r k :=
  funext fun a => Fin.ext (by match a with | ⟨0, _⟩ => rfl | ⟨1, _⟩ => rfl)
theorem ridx12 (r : Fin 10000) (c k : Fin 128) : ridx_main_v12 (ix2 r c) k = ix2 k c :=
  funext fun a => Fin.ext (by match a with | ⟨0, _⟩ => rfl | ⟨1, _⟩ => rfl)
/-- The index maps of the product adj · x at (r, k): the left operand at (r, j), the right at (j, k). -/
theorem lidx5 (r : Fin 10000) (k : Fin 128) (j : Fin 10000) : lidx_main_v5 (ix2 r k) j = ix2 r j :=
  funext fun a => Fin.ext (by match a with | ⟨0, _⟩ => rfl | ⟨1, _⟩ => rfl)
theorem ridx5 (r : Fin 10000) (k : Fin 128) (j : Fin 10000) : ridx_main_v5 (ix2 r k) j = ix2 j k :=
  funext fun a => Fin.ext (by match a with | ⟨0, _⟩ => rfl | ⟨1, _⟩ => rfl)

/-- hi = adj · x at (r, k). -/
theorem hi_apply (x0 : FVec Ideal SX .f32) (x1 : FVec Ideal SA .f32) (r : Fin 10000) (k : Fin 128) :
    val_main_v5 (F := Ideal) x0 x1 (ix2 r k) = agg x0 x1 r k := by
  rw [val_main_v5_apply]
  unfold agg
  simp only [lidx5, ridx5]

/-- s = (1 − α)·hi + α·h0 at (r, k). -/
theorem support_apply (x0 : FVec Ideal SX .f32) (x1 : FVec Ideal SA .f32) (x2 : FVec Ideal SX .f32) (x4 : FVec Ideal S0 .f32)
    (r : Fin 10000) (k : Fin 128) :
    val_main_v11 (F := Ideal) x0 x1 x2 x4 (ix2 r k) = (1 - x4 ix0) * agg x0 x1 r k + x4 ix0 * x2 (ix2 r k) := by
  rw [val_main_v11_apply, val_main_v8_apply, val_main_v10_apply, val_main_v7_apply, val_main_v9_apply, val_main_v6_apply,
    val_main_cst_1_apply, hi_apply]
  show (Ideal.ofBits .f32 0x3F800000#32 - x4 ix0) * agg x0 x1 r k + x4 ix0 * x2 (ix2 r k) = _
  rw [Cert.Net.one_word]

/-- The reference's last stage is the blended-rows form. -/
theorem ref_eq (x0 : FVec Ideal SX .f32) (x1 : FVec Ideal SA .f32) (x2 : FVec Ideal SX .f32) (x3 x4 : FVec Ideal S0 .f32)
    (x5 : IVec S0 32) (x6 : FVec Ideal SW .f32) :
    val_main_v19 (F := Ideal) x0 x1 x2 x3 x4 x5 x6 = Gref x0 x1 x2 (thetaV x3 x5 ix0) (x4 ix0) x6 := by
  funext i
  obtain ⟨r, c, rfl⟩ : ∃ (r : Fin 10000) (c : Fin 128), i = ix2 r c := ⟨i 0, i 1, eq_ix2 i⟩
  rw [val_main_v19_apply, val_main_v18_apply, val_main_v14_apply, val_main_v17_apply, val_main_v13_apply,
    val_main_v16_apply, val_main_v15_apply, val_main_cst_2_apply, val_main_v12_apply, support_apply]
  simp only [lidx12, ridx12, support_apply]
  show _ = GrefAt x0 x1 x2 (thetaV x3 x5 ix0) (x4 ix0) x6 r c
  unfold GrefAt
  show (thetaV x3 x5 ix0 * (∑ k : Fin 128, ((1 - x4 ix0) * agg x0 x1 r k + x4 ix0 * x2 (ix2 r k)) * x6 (ix2 k c))
      + (Ideal.ofBits .f32 0x3F800000#32 - thetaV x3 x5 ix0) * ((1 - x4 ix0) * agg x0 x1 r c + x4 ix0 * x2 (ix2 r c)))
      + x0 (ix2 r c)
    = (thetaV x3 x5 ix0 * (∑ k : Fin 128, ((1 - x4 ix0) * agg x0 x1 r k + x4 ix0 * x2 (ix2 r k)) * x6 (ix2 k c))
      + (1 - thetaV x3 x5 ix0) * ((1 - x4 ix0) * agg x0 x1 r c + x4 ix0 * x2 (ix2 r c)))
      + x0 (ix2 r c)
  rw [Cert.Net.one_word]

end Cert.ReferenceIdeal.RefValue

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.PreReal.lean ====
/-
  What the precondition says. It is the conjunction of  all(|a| < +inf)  for the six float inputs and of
  λ / l + 1 > 0. Read back: every entry of every float input is a real number, and the argument of the logarithm is
  positive (so θ is a real number).
-/
import proofs.«105582_g20521353740692_cont_8to1_93_4_alg».proof.Pre_finite_inputs
import proofs.«105582_g20521353740692_cont_8to1_93_4_alg».proof.Proof.LibFinite
import proofs.«105582_g20521353740692_cont_8to1_93_4_alg».proof.Proof.Spec
import Idealize.ShloMosaic.Lib.Affine

noncomputable section

namespace Cert.Fused

open Idealize.ShloMosaic Idealize.ShloMosaic.ValueIdx

/-- A scalar whose absolute value is below +inf is a real number (the scalar is compared without a broadcast). -/
theorem real_of_all_scalar (x : FVec Ideal S0 .f32) (h : S0.ReducesTo [] S0) (hu : 0 < S0.numel) (j : S0.Idx)
    (e : Host.reduce IntOp.andi (cmpf .olt (Host.absf x) (constant S0 .f32 0x7F800000#32)) (constantI S0 1 1#1) h hu j = 1#1) :
    ∃ r : ℝ, x ix0 = (r : EReal) := by
  have hi := Host.reduce_andi_all _ _ h hu j e ix0
  have hc : Ideal.cmp .olt (max (x ix0) (-(x ix0))) (Ideal.ofBits .f32 0x7F800000#32) = 1#1 := hi
  rw [Cert.LibFinite.inf_word] at hc
  refine Cert.LibFinite.real_of_abs_lt_top (x ix0) ?_
  by_contra hlt
  have h0 : Ideal.cmp .olt (max (x ix0) (-(x ix0))) ⊤ = 0#1 := by
    show BitVec.ofBool (decide (max (x ix0) (-(x ix0)) < ⊤)) = 0#1
    rw [decide_eq_false hlt]; rfl
  rw [h0] at hc
  exact absurd hc (by decide)

/-- The comparison  y > 0  answering 1 means 0 < y. -/
theorem pos_of_ogt (y : FVec Ideal S0 .f32) (e : cmpf .ogt y (constant S0 .f32 0x00000000#32) ix0 = 1#1) : 0 < y ix0 := by
  have hc : Ideal.cmp .ogt (y ix0) (Ideal.ofBits .f32 0x00000000#32) = 1#1 := e
  rw [Ideal.ofBits_zero_f32] at hc
  by_contra hlt
  have h0 : Ideal.cmp .ogt (y ix0) 0 = 0#1 := by
    show BitVec.ofBool (decide ((0 : EReal) < y ix0)) = 0#1
    rw [decide_eq_false hlt]; rfl
  rw [h0] at hc
  exact absurd hc (by decide)

/-- The precondition read back. -/
theorem reals_of_pre [Cert.Pre_finite_inputs.Facts] (a0 : FVec Ideal SX .f32) (a1 : FVec Ideal SA .f32)
    (a2 : FVec Ideal SX .f32) (a3 a4 : FVec Ideal S0 .f32) (a5 : IVec S0 32) (a6 : FVec Ideal SW .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∃ r : ℝ, a3 ix0 = (r : EReal)) ∧ (∃ r : ℝ, a4 ix0 = (r : EReal)) ∧ (∀ i, ∃ r : ℝ, a6 i = (r : EReal))
      ∧ 0 < logArg a3 a5 ix0 := by
  have h0 := congrFun h ix0
  dsimp only [Cert.Pre_finite_inputs.fn, Cert.Pre_finite_inputs.fn_part1] at h0
  obtain ⟨h26, h30⟩ := IntOp.andi_eq_one.mp h0
  obtain ⟨h21, h25⟩ := IntOp.andi_eq_one.mp h26
  obtain ⟨h17, h20⟩ := IntOp.andi_eq_one.mp h21
  obtain ⟨h13, h16⟩ := IntOp.andi_eq_one.mp h17
  obtain ⟨h8, h12⟩ := IntOp.andi_eq_one.mp h13
  obtain ⟨h3, h7⟩ := IntOp.andi_eq_one.mp h8
  exact ⟨Cert.LibFinite.real_of_all a0 _ _ _ _ h3, Cert.LibFinite.real_of_all a1 _ _ _ _ h7,
    Cert.LibFinite.real_of_all a2 _ _ _ _ h12, real_of_all_scalar a3 _ _ _ h16, real_of_all_scalar a4 _ _ _ h20,
    Cert.LibFinite.real_of_all a6 _ _ _ _ h25, pos_of_ogt _ h30⟩

end Cert.Fused

end
-- ==== Proof.lean ====
/-
  The kernel against its reference, on the extended reals.

  Both compute, from x, adj, h0 (arrays), λ, α (scalars), the integer l and the 128 × 128 matrix W:
      θ = min(1, log(λ / l + 1)),   hi = adj · x,   s = (1 − α)·hi + α·h0,   out = θ·(s · W) + (1 − θ)·s + x.
  The reference does so literally. The kernel folds the scalar blend and the identity into the weights on the host,
      W' = θ·W + (1 − θ)·I,   w₁ = (1 − α)·W',   w₂ = α·W',
  and one pass over 50 blocks of 200 rows computes  (adj · x) · w₁ + h0 · w₂ + x.

  Over the real numbers the two are equal by distributivity (and Σ_k a(k)·I(k, c) = a(c)). On the extended reals
  distributivity fails at ±∞, and θ is −∞ as soon as λ / l + 1 ≤ 0 (then the two programs can differ: −∞ against +∞);
  so the statement is under the precondition that every float input is finite and that the argument of the logarithm is
  positive. Then every quantity is a real number and the computation is the one in ℝ.

  The parts: the law (LibBlend), the folded weights read at an index (Weights), the two arrangements of the result and
  their agreement for real entries (Spec), the precondition read back (PreReal), the reference stage by stage (RefSide),
  the kernel's host part (KernelHost), one grid point (Payload), all grid points (WholeArray). The idealized kernel is
  the printed kernel read at the extended reals (no operation was rewritten), so the fourth conjunct is trivial.
-/
import proofs.«105582_g20521353740692_cont_8to1_93_4_alg».proof.Defs
import proofs.«105582_g20521353740692_cont_8to1_93_4_alg».proof.Proof.Gen.Kernel
import proofs.«105582_g20521353740692_cont_8to1_93_4_alg».proof.Proof.Gen.Kernel.Frame
import proofs.«105582_g20521353740692_cont_8to1_93_4_alg».proof.Proof.Gen.KernelIdeal
import proofs.«105582_g20521353740692_cont_8to1_93_4_alg».proof.Proof.Gen.KernelIdeal.Frame
import proofs.«105582_g20521353740692_cont_8to1_93_4_alg».proof.Proof.Gen.KernelIdeal.Value
import proofs.«105582_g20521353740692_cont_8to1_93_4_alg».proof.Proof.Gen.ReferenceIdeal
import proofs.«105582_g20521353740692_cont_8to1_93_4_alg».proof.Proof.Gen.ReferenceIdeal.Run
import proofs.«105582_g20521353740692_cont_8to1_93_4_alg».proof.Proof.Gen.ReferenceIdeal.Read
import proofs.«105582_g20521353740692_cont_8to1_93_4_alg».proof.Proof.Gen.Pre_finite_inputs
import proofs.«105582_g20521353740692_cont_8to1_93_4_alg».proof.Proof.WholeArray
import proofs.«105582_g20521353740692_cont_8to1_93_4_alg».proof.Proof.RefSide
import proofs.«105582_g20521353740692_cont_8to1_93_4_alg».proof.Proof.PreReal
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten in passing to the extended reals. -/
theorem preserves : Cert.preserves_Kernel_KernelIdeal := trivial

/-- Under the precondition both programs end with the folded form of the arguments: the kernel by its 50 grid points,
    the reference because its blended-rows form equals the folded form when every entry is a real number. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_eq]
  obtain ⟨h0, h1, h2, h3, h4, h5, h6⟩ := hagree c
  rw [h0, h1, h2, h3, h4, h5, h6]
  obtain ⟨r0, r1, r2, _, r4, r6, hpos⟩ := Cert.Fused.reals_of_pre _ _ _ _ _ _ _ (hpre c)
  exact (Cert.Fused.G_folded_eq_Gref Cert.KernelIdeal.Facts₀.bcast_S_S128x128 _ _ _ _ _ _ r0 r1 r2 r6 r4
    (Cert.Fused.theta_real _ _ hpos)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
